-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 59
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S1x2, .f32⟩
  | .hbm, ⟨58, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S50000x2.size a
  hwx1_7 : ∀ i : grid1.Coords, EltTy.bits .f32 = 32 ∨ (Rect.block (s := S50000x2) S2000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x2 : Shape := ⟨2, ![50000, 2]⟩
abbrev S1x2 : Shape := ⟨2, ![1, 2]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x2, .f32⟩
  | .hbm, ⟨77, _⟩ => ⟨S1x2, .f32⟩
  | .hbm, ⟨78, _⟩ => ⟨S50000x2, .f32⟩
  | .hbm, ⟨79, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel's run, with the contents of EVERY buffer at the end.

  @main is four segments: a stretch of host operations, the first layer's pipeline, a second stretch, the second
  layer's pipeline. The buffer contents at the segment boundaries form a fold from the launch memory
  (`Gen.W0 … Gen.W4`): a stretch applies its operations, a pipeline replaces its arrays by what its write-backs leave.
  Every weakly fair execution terminates with each unscoped buffer at the last boundary's contents `Gen.W4`;
  in particular the result array, and each argument array, which the fold leaves as launched.
-/
import proofs.«155620_j22505628631097_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the four segments ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result array and at the eleven argument arrays. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v37 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.KernelIdeal.Whole

end
-- ==== Proof.LibRecip.lean ====
/-
  Multiplying by a reciprocal against dividing, on the extended reals.

  The quotient `Ideal.div x y` is `x * y⁻¹` whenever `y ≠ 0` (with `⊤⁻¹ = ⊥⁻¹ = 0`), so the reciprocal
  `Ideal.div 1 y` is `y⁻¹` and `x * (1 / y) = x / y` for EVERY extended real `x` and every `y ≠ 0`, the
  infinities included: no finiteness is needed. A denominator clamped from below by one, `max a 1`, is never zero.
-/
import Idealize.ShloMosaic.PureOps.Ideal
import Idealize.ShloMosaic.PureOps.Ideal.Laws

namespace Cert.LibRecip

open Idealize.ShloMosaic

/-- The f32 word `0x3F800000` denotes the real number one. -/
theorem ofBits_one_f32 : Ideal.ofBits .f32 0x3F800000#32 = 1 := by
  simp [Ideal.ofBits, Ideal.ieee, -EReal.coe_mul]; norm_num

/-- The reciprocal of a nonzero extended real is its inverse. -/
theorem one_div_eq_inv {y : EReal} (hy : y ≠ 0) : Ideal.div 1 y = y⁻¹ := by
  rw [Ideal.div, if_neg hy, one_mul]

/-- `x * (1 / y) = x / y` for every `x` and every `y ≠ 0`. -/
theorem mul_one_div {y : EReal} (hy : y ≠ 0) (x : EReal) : x * Ideal.div 1 y = Ideal.div x y := by
  rw [one_div_eq_inv hy, Ideal.div, if_neg hy]

/-- A value clamped from below by one is not zero. -/
theorem max_one_ne_zero (a : EReal) : max a 1 ≠ 0 :=
  ne_of_gt (lt_of_lt_of_le zero_lt_one (le_max_right a 1))

/-- The law in the form the two programs meet it: the denominator is `max a 1`. -/
theorem mul_one_div_max (x a : EReal) : x * Ideal.div 1 (max a 1) = Ideal.div x (max a 1) :=
  mul_one_div (max_one_ne_zero a) x

end Cert.LibRecip
-- ==== Proof.Mean.lean ====
/-
  The mean over in-neighbours, in the two spellings the programs use.

  For an array h of node features, `summed h` adds, for every edge (src → dst), row src of h into row dst of a zero
  array, and `degree` counts the edges arriving at each node. The neighbour mean of node r divides row r of `summed` by
  max(degree r, 1). One program divides; the other computes the reciprocal 1 / max(degree r, 1) once and multiplies.
  On the extended reals x · (1 / y) = x / y for every x as soon as y ≠ 0, and max(·, 1) is never zero, so the two
  arrays are equal entry by entry, whatever the features and the edge lists hold.
-/
import proofs.«155620_j22505628631097_1_alg».proof.Proof.Gen.KernelIdeal
import Idealize.ShloMosaic.Lib.Pipeline.Value
import proofs.«155620_j22505628631097_1_alg».proof.Proof.LibRecip
import Idealize.ShloMosaic.Lib.ValueIdx
import Idealize.ShloMosaic.PureOps.Ideal.Laws

noncomputable section

namespace Cert.KernelIdeal.Mean

open Cert.KernelIdeal Cert.KernelIdeal.Facts₀ Idealize.ShloMosaic

variable {F : FTy → Type} [FloatOps F]

/-- How many edges arrive at each node: a one added at every edge's destination. -/
def degree (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (broadcastInDim S800000x1 ![0] bcast_S800000_S800000x1_0 dst) (broadcastInDim S800000 ![] bcast_S_S800000 (constant S_ .f32 0x3F800000#32))

/-- The degree clamped from below by one. -/
def denom (dst : (⟨S800000, .i32⟩ : BufTy).Contents (Elt F)) : (⟨S50000, .f32⟩ : BufTy).Contents (Elt F) :=
  maximumf (degree dst) (broadcastInDim S50000 ![] bcast_S_S50000 (constant S_ .f32 0x3F800000#32))

/-- The edges' source nodes as gather indices: a negative index counts from the end. -/
def edgeSrc (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Row src of `h` added into row dst, over all edges. -/
def summed (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (edgeSrc src))

/-- A per-node value repeated along the 128 features. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean by multiplying with the reciprocal of the clamped degree. -/
def meanMul (h : (⟨S50000x128, .f32⟩ : BufTy).Contents (Elt F)) (src dst : (⟨S800000, .i32⟩ : BufTy).Contents (Elt F)) :
    (⟨S50000x128, .f32⟩ : BufTy).Contents (Elt F) :=
  mulf (summed h src dst) (spread (Host.divf (broadcastInDim S50000 ![] bcast_S_S50000 (constant S_ .f32 0x3F800000#32)) (denom dst)))

/-- The mean by dividing by the clamped degree. -/
def meanDiv (h : (⟨S50000x128, .f32⟩ : BufTy).Contents (Elt F)) (src dst : (⟨S800000, .i32⟩ : BufTy).Contents (Elt F)) :
    (⟨S50000x128, .f32⟩ : BufTy).Contents (Elt F) :=
  Host.divf (summed h src dst) (spread (denom dst))

/-- A per-node value repeated along the features, read at (r, q): the value at node r. -/
theorem spread_apply (v : (⟨S50000, .f32⟩ : BufTy).Contents (Elt F)) (i : S50000x128.Idx) :
    spread v i = v (fun a => match a with | ⟨0, _⟩ => ⟨(i 0).val, (i 0).isLt⟩) := by
  unfold spread
  refine (broadcastInDim_apply _ bcast_S50000x1_S50000x128_0_1 (broadcastInDim S50000x1 ![0] bcast_S50000_S50000x1_0 v) i
    (fun a => match a with | ⟨0, _⟩ => ⟨(i 0).val, (i 0).isLt⟩ | ⟨1, _⟩ => ⟨0, Nat.one_pos⟩) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans ?_
  exact broadcastInDim_apply _ bcast_S50000_S50000x1_0 v _ _ (fun a => match a with
      | ⟨0, _⟩ => by show (i 0).val = if (50000 : Nat) = 1 then 0 else (i 0).val; rw [if_neg (by decide)])

/-- The per-node splat of the word `0x3F800000` is the real number one at every node. -/
theorem ones_apply (k : S50000.Idx) :
    (broadcastInDim S50000 ![] bcast_S_S50000 (constant (F := Ideal) S_ .f32 0x3F800000#32) : S50000.Idx → EReal) k = 1 := by
  refine (broadcastInDim_apply _ bcast_S_S50000 (constant (F := Ideal) S_ .f32 0x3F800000#32) k (fun a => a.elim0) (fun a => a.elim0)).trans ?_
  exact LibRecip.ofBits_one_f32

/-- The law on any array `S` of sums and any array `G` of degrees: multiplying by the spread reciprocal of
    max(G, 1) is dividing by the spread max(G, 1). -/
theorem mul_recip_eq_div (S : (⟨S50000x128, .f32⟩ : BufTy).Contents (Elt Ideal)) (G : (⟨S50000, .f32⟩ : BufTy).Contents (Elt Ideal)) :
    mulf S (spread (Host.divf (broadcastInDim S50000 ![] bcast_S_S50000 (constant (F := Ideal) S_ .f32 0x3F800000#32))
        (maximumf G (broadcastInDim S50000 ![] bcast_S_S50000 (constant (F := Ideal) S_ .f32 0x3F800000#32)))))
      = Host.divf S (spread (maximumf G (broadcastInDim S50000 ![] bcast_S_S50000 (constant (F := Ideal) S_ .f32 0x3F800000#32)))) := by
  funext i
  show (S i : EReal) * spread (Host.divf (broadcastInDim S50000 ![] bcast_S_S50000 (constant (F := Ideal) S_ .f32 0x3F800000#32))
        (maximumf G (broadcastInDim S50000 ![] bcast_S_S50000 (constant (F := Ideal) S_ .f32 0x3F800000#32)))) i
      = Ideal.div (S i) (spread (maximumf G (broadcastInDim S50000 ![] bcast_S_S50000 (constant (F := Ideal) S_ .f32 0x3F800000#32))) i)
  rw [spread_apply, spread_apply]
  generalize (fun a => match a with | ⟨0, _⟩ => ⟨(i 0).val, (i 0).isLt⟩ : S50000.Idx) = k
  show (S i : EReal) * Ideal.div ((broadcastInDim S50000 ![] bcast_S_S50000 (constant (F := Ideal) S_ .f32 0x3F800000#32) : S50000.Idx → EReal) k)
        (max (G k) ((broadcastInDim S50000 ![] bcast_S_S50000 (constant (F := Ideal) S_ .f32 0x3F800000#32) : S50000.Idx → EReal) k))
      = Ideal.div (S i) (max (G k) ((broadcastInDim S50000 ![] bcast_S_S50000 (constant (F := Ideal) S_ .f32 0x3F800000#32) : S50000.Idx → EReal) k))
  rw [ones_apply]
  exact LibRecip.mul_one_div_max _ _

/-- The two spellings of the neighbour mean agree on the extended reals: the law at the array of sums and the degrees. -/
theorem meanMul_eq_meanDiv (h : (⟨S50000x128, .f32⟩ : BufTy).Contents (Elt Ideal)) (src dst : (⟨S800000, .i32⟩ : BufTy).Contents (Elt Ideal)) :
    meanMul (F := Ideal) h src dst = meanDiv h src dst :=
  mul_recip_eq_div (summed (F := Ideal) h src dst) (degree (F := Ideal) dst)

end Cert.KernelIdeal.Mean

end
-- ==== Proof.Spec.lean ====
/-
  The network both programs compute, index by index on the extended reals.

  One graph-convolution step combines, for node r and output feature q,
      lin(r, q) = Σₖ x(r, k) · Wself(k, q) + Σₖ hn(r, k) · Wneigh(k, q) + β(q)
  where x holds the nodes' own features, hn the means over their in-neighbours and β the bias. The first layer clamps
  `lin` at zero; the second feeds its `lin` to a 128 → 2 classifier, Σₖ lin(r, k) · Wf(k, c) + γ(c).
  The definitions are generic in the number of rows, so the same formula is read on a block of 2000 rows and on the
  whole array of 50000 rows: a block's row p at grid point t is the array's row 2000·t + p.
-/
import Idealize.ShloMosaic.Lib.ValueIdx
import Idealize.ShloMosaic.PureOps.Ideal

noncomputable section

namespace Cert.Sage

open Idealize.ShloMosaic Idealize.ShloMosaic.ValueIdx

/-- `R` rows of 128 features. -/
abbrev Feat (R : Nat) : Shape := ⟨2, ![R, 128]⟩
/-- A 128 × 128 weight matrix. -/
abbrev Sq : Shape := ⟨2, ![128, 128]⟩
/-- The 128 × 2 classifier. -/
abbrev Cls : Shape := ⟨2, ![128, 2]⟩
/-- `R` rows of 2 class scores. -/
abbrev Out (R : Nat) : Shape := ⟨2, ![R, 2]⟩

/-- The linear combination at row `p`, output feature `q`. -/
def linAt {R : Nat} (x hn : (Feat R).Idx → EReal) (ws wn : Sq.Idx → EReal) (β : Fin 128 → EReal) (p : Fin R) (q : Fin 128) : EReal :=
  (∑ k : Fin 128, x (ix2 p k) * ws (ix2 k q)) + (∑ k : Fin 128, hn (ix2 p k) * wn (ix2 k q)) + β q

/-- `linAt` depends only on row `p` of the two feature arrays, on the two weight matrices and on the bias values. -/
theorem linAt_congr {R R' : Nat} (x hn : (Feat R).Idx → EReal) (X HN : (Feat R').Idx → EReal) (ws wn Ws Wn : Sq.Idx → EReal)
    (β β' : Fin 128 → EReal) (p : Fin R) (r : Fin R') (q : Fin 128)
    (hx : ∀ k : Fin 128, x (ix2 p k) = X (ix2 r k)) (hh : ∀ k : Fin 128, hn (ix2 p k) = HN (ix2 r k))
    (hws : ws = Ws) (hwn : wn = Wn) (hβ : β q = β' q) :
    linAt x hn ws wn β p q = linAt X HN Ws Wn β' r q := by
  subst hws hwn
  unfold linAt
  simp only [hx, hh, hβ]

/-- The first layer: the linear combination clamped at zero, on every row. -/
def layer1 {R : Nat} (x hn : (Feat R).Idx → EReal) (ws wn : Sq.Idx → EReal) (β : Fin 128 → EReal) : (Feat R).Idx → EReal :=
  fun i => max (linAt x hn ws wn β (i 0) (i 1)) 0

/-- The second layer and the classifier: the linear combination of row r against the classifier's column c, plus
    the classifier's bias. -/
def head {R : Nat} (h hn : (Feat R).Idx → EReal) (ws wn : Sq.Idx → EReal) (β : Fin 128 → EReal) (wf : Cls.Idx → EReal)
    (γ : Fin 2 → EReal) : (Out R).Idx → EReal :=
  fun i => (∑ k : Fin 128, linAt h hn ws wn β (i 0) k * wf (ix2 k (i 1))) + γ (i 1)

/-- Row `p` of the block at grid point `t` is row `2000·t + p` of the array (25 points of 2000 rows). -/
def rowAt (t : Nat) (ht : t < 25) (p : Fin 2000) : Fin 50000 := ⟨t * 2000 + p.val, by have := p.isLt; omega⟩

end Cert.Sage

end
-- ==== Proof.Payload.lean ====
/-
  What the two kernel bodies store, read at one row `p` and one column `q` of the block, at the ideal instance.

  Each body multiplies a [2000,128] block of node rows by a [128,·] weight matrix into a zero accumulator: at (p, q) that
  is the sum over the 128 features k of block(p, k) · weight(k, q); the narrowing to bf16 before the product is the
  identity on extended reals. The first body adds the two products and the bias row and clamps at zero; the second
  adds the two products and the bias row, multiplies the 128-wide result by the [128,2] classifier and adds its bias.
-/
import proofs.«155620_j22505628631097_1_alg».proof.Proof.Gen.KernelIdeal.Skeleton
import proofs.«155620_j22505628631097_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.Sage Idealize.ShloMosaic Idealize.ShloMosaic.ValueIdx

/-- The operand indices of the [2000,128] × [128,128] product at output index `i` and contraction index `c`: the left
    operand's row is the output's row, the right operand's column is the output's column. -/
theorem sq_lhs0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem sq_rhs1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The same for the [2000,128] × [128,2] classifier product. -/
theorem cls_lhs0 (i : S2000x2.Idx) (c : dot_S2000x128_S128x2_S2000x2_1_0_0_1_n_n.contr.Idx) :
    (dot_S2000x128_S128x2_S2000x2_1_0_0_1_n_n.lhsIdx i c 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem cls_rhs1 (i : S2000x2.Idx) (c : dot_S2000x128_S128x2_S2000x2_1_0_0_1_n_n.contr.Idx) :
    (dot_S2000x128_S128x2_S2000x2_1_0_0_1_n_n.rhsIdx i c 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- A [2000,128] × [128,128] product into the zero accumulator, at (p, q): row p of the left operand against column q
    of the right, summed over the contracted feature axis. -/
theorem matmul_sq {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact sq_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact sq_rhs1 _ _)
  rw [el, er]

/-- The same for the [2000,128] × [128,2] classifier product. -/
theorem matmul_cls {φ₁ φ₂ : FTy} (x : FVec Ideal S2000x128 φ₁) (w : FVec Ideal S128x2 φ₂) (p : Fin 2000) (q : Fin 2) :
    matmul dot_S2000x128_S128x2_S2000x2_1_0_0_1_n_n none x w (constant (F := Ideal) S2000x2 .f32 0x00000000#32) (ix2 p q)
      = ∑ k : Fin 128, x (ix2 p k) * w (ix2 k q) := by
  simp only [matmul]
  rw [Ideal.matmul_constant_zero_apply, ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k :=
    funext fun a => Fin.ext (by
      match a with
      | ⟨0, _⟩ => exact cls_lhs0 _ _
      | ⟨1, _⟩ => exact (dot_S2000x128_S128x2_S2000x2_1_0_0_1_n_n.lhsIdx_val_of_single rfl _ _).trans hk)
  have er : dot_S2000x128_S128x2_S2000x2_1_0_0_1_n_n.rhsIdx (ix2 p q) ((contrEquiv1 dot_S2000x128_S128x2_S2000x2_1_0_0_1_n_n 128 rfl rfl).symm k) = ix2 k q :=
    funext fun a => Fin.ext (by
      match a with
      | ⟨0, _⟩ => exact (dot_S2000x128_S128x2_S2000x2_1_0_0_1_n_n.rhsIdx_val_of_single rfl _ _).trans hk
      | ⟨1, _⟩ => exact cls_rhs1 _ _)
  rw [el, er]

/-- The bias row [1,128] spread over the 2000 rows of a block, at (p, q): entry q of the row. -/
theorem bias_row (b : Vec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [shapeCast_self]
  refine broadcastTo_apply b broadcasts_S1x128_S2000x128 (ix2 p q) (ix2 (0 : Fin 1) q) fun a => ?_
  match a with
  | ⟨0, _⟩ => rfl
  | ⟨1, _⟩ => rfl

/-- The classifier's bias row [1,2] spread over the 2000 rows of a block. -/
theorem bias_cls (b : Vec Ideal S1x2 .f32) (p : Fin 2000) (q : Fin 2) :
    broadcastTo S2000x2 (shapeCast S1x2 b shapeCasts_S1x2_S1x2) broadcasts_S1x2_S2000x2 (ix2 p q) = b (ix2 (0 : Fin 1) q) := by
  rw [shapeCast_self]
  refine broadcastTo_apply b broadcasts_S1x2_S2000x2 (ix2 p q) (ix2 (0 : Fin 1) q) fun a => ?_
  match a with
  | ⟨0, _⟩ => rfl
  | ⟨1, _⟩ => rfl

/-- The first body stores the linear part clamped at zero. -/
theorem pay0_at (x hn : Vec Ideal S2000x128 .f32) (ws wn : Vec Ideal S128x128 .f32) (b : Vec Ideal S1x128 .f32) (p : Fin 2000) (q : Fin 128) :
    k0_pay1 (F := Ideal) x hn ws wn b (ix2 p q) = max (linAt (R := 2000) x hn ws wn (fun q => b (ix2 (0 : Fin 1) q)) p q) 0 := by
  unfold k0_pay1 linAt
  rw [maximumf_apply, addf_apply, addf_apply, matmul_sq, matmul_sq, bias_row, shapeCast_self, broadcast_apply]
  simp only [truncf_apply]
  show max _ (Ideal.ofBits .f32 0x00000000#32) = _
  rw [Ideal.ofBits_zero_f32]

/-- The second body stores the linear part times the classifier, plus the classifier's bias. -/
theorem pay1_at (h hn : Vec Ideal S2000x128 .f32) (ws wn : Vec Ideal S128x128 .f32) (b : Vec Ideal S1x128 .f32)
    (wf : Vec Ideal S128x2 .f32) (bf : Vec Ideal S1x2 .f32) (p : Fin 2000) (q : Fin 2) :
    k1_pay1 (F := Ideal) h hn ws wn b wf bf (ix2 p q)
      = (∑ k : Fin 128, linAt (R := 2000) h hn ws wn (fun q => b (ix2 (0 : Fin 1) q)) p k * wf (ix2 k q)) + bf (ix2 (0 : Fin 1) q) := by
  unfold k1_pay1
  rw [addf_apply, matmul_cls, bias_cls]
  refine congrArg (· + bf (ix2 (0 : Fin 1) q)) (Finset.sum_congr rfl fun k _ => ?_)
  rw [truncf_apply, truncf_apply, addf_apply, addf_apply, matmul_sq, matmul_sq, bias_row, shapeCast_self, shapeCast_self]
  simp only [truncf_apply]
  rfl

end Cert.KernelIdeal.Body

end
-- ==== Proof.Layer1.lean ====
/-
  The first pipeline: its result array after the run is the first layer of the network on every row.

  The grid has 25 points; point t stages rows 2000·t … 2000·t + 1999 of the node features and of the neighbour means,
  the two weight matrices and the bias row whole, and writes back rows 2000·t … 2000·t + 1999 of the result. What it
  writes at block row p, column q is the clamped linear combination of the staged blocks, which reads only row p of the
  two feature blocks: so it is the network's first layer at row 2000·t + p of the arrays the region finds. The 25 blocks
  tile the 50000 rows, hence the whole array ends at the first layer of the entry arrays.
-/
import proofs.«155620_j22505628631097_1_alg».proof.Proof.Gen.KernelIdeal.Frame
import proofs.«155620_j22505628631097_1_alg».proof.Proof.Payload
import Idealize.ShloMosaic.Lib.Pipeline.Value

set_option maxRecDepth 16384

noncomputable section

namespace Cert.KernelIdeal.Layer1

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the three row-blocked windows sit at block row t, block column 0;
    the weights and the bias are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt25 (t : Fin cfg0.N) : t.val < 25 := by
  have hN : cfg0.N = 25 := N_0
  have := t.isLt
  omega

/-- The node-feature block at point t, row p, is row 2000·t + p of the array. -/
theorem blk_x (c : Dev nD) (t : Fin cfg0.N) (p : Fin 2000) (k : Fin 128) :
    (iblk0 V c 0 t : Vec Ideal S2000x128 .f32) (ix2 p k) = (V c main_arg0 : S50000x128.Idx → EReal) (ix2 (rowAt t.val (lt25 t) p) k) := by
  obtain ⟨e0, e1, -⟩ := idx_facts t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The same for the neighbour-mean block. -/
theorem blk_hn (c : Dev nD) (t : Fin cfg0.N) (p : Fin 2000) (k : Fin 128) :
    (iblk0 V c 1 t : Vec Ideal S2000x128 .f32) (ix2 p k) = (V c main_v20 : S50000x128.Idx → EReal) (ix2 (rowAt t.val (lt25 t) p) k) := by
  obtain ⟨-, -, e0, e1, -⟩ := idx_facts t
  unfold iblk0
  rw [View.read_apply]
  show (V c main_v20 : S50000x128.Idx → EReal) _ = _
  refine congrArg (V c main_v20 : S50000x128.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The self weights are staged whole at every point. -/
theorem blk_ws (c : Dev nD) (t : Fin cfg0.N) : (iblk0 V c 2 t : Vec Ideal S128x128 .f32) = (V c main_arg3 : S128x128.Idx → EReal) := by
  obtain ⟨-, -, -, -, e0, e1, -⟩ := idx_facts t
  funext y
  unfold iblk0
  rw [View.read_apply]
  show (V c main_arg3 : S128x128.Idx → EReal) _ = _
  refine congrArg (V c main_arg3 : S128x128.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The neighbour weights are staged whole at every point. -/
theorem blk_wn (c : Dev nD) (t : Fin cfg0.N) : (iblk0 V c 3 t : Vec Ideal S128x128 .f32) = (V c main_arg4 : S128x128.Idx → EReal) := by
  obtain ⟨-, -, -, -, -, -, e0, e1, -⟩ := idx_facts t
  funext y
  unfold iblk0
  rw [View.read_apply]
  show (V c main_arg4 : S128x128.Idx → EReal) _ = _
  refine congrArg (V c main_arg4 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is staged whole at every point. -/
theorem blk_b (c : Dev nD) (t : Fin cfg0.N) : (iblk0 V c 4 t : Vec Ideal S1x128 .f32) = (V c main_v21 : S1x128.Idx → EReal) := by
  obtain ⟨-, -, -, -, -, -, -, -, e0, e1, -⟩ := idx_facts t
  funext y
  unfold iblk0
  rw [View.read_apply]
  show (V c main_v21 : S1x128.Idx → EReal) _ = _
  refine congrArg (V c main_v21 : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The first layer of the arrays the region finds. -/
abbrev result (c : Dev nD) : S50000x128.Idx → EReal :=
  layer1 (R := 50000) (V c main_arg0) (V c main_v20) (V c main_arg3) (V c main_arg4) (fun q => (V c main_v21 : S1x128.Idx → EReal) (ix2 (0 : Fin 1) q))

/-- Where the result's block at point t sits in the array: block row p is array row 2000·t + p. -/
theorem emb_out (t : Fin cfg0.N) (p : Fin 2000) (q : Fin 128) :
    ((cfg0.win 5).blk t).view.emb (ix2 p q) = (ix2 (rowAt t.val (lt25 t) p) q : S50000x128.Idx) := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- What point t writes back is block t of the first layer of the entry arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = result V c (((cfg0.win 5).blk t).view.emb (ix2 p q))
  rw [emb_out t p q]
  refine (Body.pay0_at (iblk0 V c 0 t) (iblk0 V c 1 t) (iblk0 V c 2 t) (iblk0 V c 3 t) (iblk0 V c 4 t) p q).trans ?_
  show max _ 0 = max (linAt (R := 50000) (V c main_arg0) (V c main_v20) (V c main_arg3) (V c main_arg4) _ (rowAt t.val (lt25 t) p) q) 0
  refine congrArg (max · 0) (linAt_congr _ _ _ _ _ _ _ _ _ _ p (rowAt t.val (lt25 t) p) q (blk_x V c t p) (blk_hn V c t p) (blk_ws V c t) (blk_wn V c t) ?_)
  show (iblk0 V c 4 t : Vec Ideal S1x128 .f32) (ix2 (0 : Fin 1) q) = _
  rw [blk_b V c t]

/-- An index of the array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- Every row of the array is in some point's block: row r is in block r / 2000. -/
theorem cover (i : S50000x128.Idx) : ∃ t : Fin cfg0.N, (cfg0.win 5).flush t = true ∧ i ∈ ((cfg0.win 5).blk t).view.set := by
  have hN : grid0.N = 25 := N_0
  have hi0 : (i 0).val < 50000 := (i 0).isLt
  have hi1 : (i 1).val < 128 := (i 1).isLt
  let t : Fin cfg0.N := ⟨(i 0).val / 2000, by show (i 0).val / 2000 < grid0.N; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-- The result array after the region: the first layer of the arrays the region finds. -/
theorem final (c : Dev nD) : (dat0 V c).arrAt 5 cfg0.N = result V c :=
  (dat0 V c).arrAt_eq_of_cover 5 (result V c) (fun t _ => flushed_eq V c t) cover

end Cert.KernelIdeal.Layer1

end
-- ==== Proof.Layer2.lean ====
/-
  The second pipeline: its result array after the run is the second layer and the classifier on every row.

  As in the first pipeline the grid has 25 points and point t stages rows 2000·t … 2000·t + 1999 of the hidden
  features and of their neighbour means; the two weight matrices, the bias row, the 128 × 2 classifier and its bias are
  staged whole. What the point writes at block row p, class q is the linear combination of row p against the
  classifier's column q plus the classifier's bias: the network's head at row 2000·t + p of the arrays the region finds.
  The 25 blocks of 2000 rows tile the 50000 rows of the result.
-/
import proofs.«155620_j22505628631097_1_alg».proof.Proof.Gen.KernelIdeal.Frame
import proofs.«155620_j22505628631097_1_alg».proof.Proof.Payload
import Idealize.ShloMosaic.Lib.Pipeline.Value

set_option maxRecDepth 16384

noncomputable section

namespace Cert.KernelIdeal.Layer2

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the three row-blocked windows sit at block row t, block column 0;
    the weights, the classifier and the two bias rows are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ True :=
  (by decide +kernel : ∀ t : Fin grid1.N, _)

theorem lt25 (t : Fin cfg1.N) : t.val < 25 := by
  have hN : cfg1.N = 25 := N_1
  have := t.isLt
  omega

/-- The hidden-feature block at point t, row p, is row 2000·t + p of the array. -/
theorem blk_h (c : Dev nD) (t : Fin cfg1.N) (p : Fin 2000) (k : Fin 128) :
    (iblk1 V c 0 t : Vec Ideal S2000x128 .f32) (ix2 p k) = (V c main_v22 : S50000x128.Idx → EReal) (ix2 (rowAt t.val (lt25 t) p) k) := by
  obtain ⟨e0, e1, -⟩ := idx_facts t
  unfold iblk1
  rw [View.read_apply]
  show (V c main_v22 : S50000x128.Idx → EReal) _ = _
  refine congrArg (V c main_v22 : S50000x128.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The same for the neighbour-mean block. -/
theorem blk_hn (c : Dev nD) (t : Fin cfg1.N) (p : Fin 2000) (k : Fin 128) :
    (iblk1 V c 1 t : Vec Ideal S2000x128 .f32) (ix2 p k) = (V c main_v34 : S50000x128.Idx → EReal) (ix2 (rowAt t.val (lt25 t) p) k) := by
  obtain ⟨-, -, e0, e1, -⟩ := idx_facts t
  unfold iblk1
  rw [View.read_apply]
  show (V c main_v34 : S50000x128.Idx → EReal) _ = _
  refine congrArg (V c main_v34 : S50000x128.Idx → EReal) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- The self weights are staged whole at every point. -/
theorem blk_ws (c : Dev nD) (t : Fin cfg1.N) : (iblk1 V c 2 t : Vec Ideal S128x128 .f32) = (V c main_arg6 : S128x128.Idx → EReal) := by
  obtain ⟨-, -, -, -, e0, e1, -⟩ := idx_facts t
  funext y
  unfold iblk1
  rw [View.read_apply]
  show (V c main_arg6 : S128x128.Idx → EReal) _ = _
  refine congrArg (V c main_arg6 : S128x128.Idx → EReal) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The neighbour weights are staged whole at every point. -/
theorem blk_wn (c : Dev nD) (t : Fin cfg1.N) : (iblk1 V c 3 t : Vec Ideal S128x128 .f32) = (V c main_arg7 : S128x128.Idx → EReal) := by
  obtain ⟨-, -, -, -, -, -, e0, e1, -⟩ := idx_facts t
  funext y
  unfold iblk1
  rw [View.read_apply]
  show (V c main_arg7 : S128x128.Idx → EReal) _ = _
  refine congrArg (V c main_arg7 : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row is staged whole at every point. -/
theorem blk_b (c : Dev nD) (t : Fin cfg1.N) : (iblk1 V c 4 t : Vec Ideal S1x128 .f32) = (V c main_v35 : S1x128.Idx → EReal) := by
  obtain ⟨-, -, -, -, -, -, -, -, e0, e1, -⟩ := idx_facts t
  funext y
  unfold iblk1
  rw [View.read_apply]
  show (V c main_v35 : S1x128.Idx → EReal) _ = _
  refine congrArg (V c main_v35 : S1x128.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The classifier is staged whole at every point. -/
theorem blk_wf (c : Dev nD) (t : Fin cfg1.N) : (iblk1 V c 5 t : Vec Ideal S128x2 .f32) = (V c main_arg9 : S128x2.Idx → EReal) := by
  obtain ⟨-, -, -, -, -, -, -, -, -, -, e0, e1, -⟩ := idx_facts t
  funext y
  unfold iblk1
  rw [View.read_apply]
  show (V c main_arg9 : S128x2.Idx → EReal) _ = _
  refine congrArg (V c main_arg9 : S128x2.Idx → EReal) (funext fun a => Fin.ext ?_)
  match a with
  | ⟨0, _⟩ => show win1_5.index t (0 : Fin 2) * 128 + 1 * (y 0).val = (y 0).val; rw [e0]; omega
  | ⟨1, _⟩ => show win1_5.index t (1 : Fin 2) * 2 + 1 * (y 1).val = (y 1).val; rw [e1]; omega

/-- The classifier's bias row is staged whole at every point. -/
theorem blk_bf (c : Dev nD) (t : Fin cfg1.N) : (iblk1 V c 6 t : Vec Ideal S1x2 .f32) = (V c main_v36 : S1x2.Idx → EReal) := by
  obtain ⟨-, -, -, -, -, -, -, -, -, -, -, -, e0, e1, -⟩ := idx_facts t
  funext y
  unfold iblk1
  rw [View.read_apply]
  show (V c main_v36 : S1x2.Idx → EReal) _ = _
  refine congrArg (V c main_v36 : S1x2.Idx → EReal) (funext fun a => Fin.ext ?_)
  match a with
  | ⟨0, _⟩ => show win1_6.index t (0 : Fin 2) * 1 + 1 * (y 0).val = (y 0).val; rw [e0]; omega
  | ⟨1, _⟩ => show win1_6.index t (1 : Fin 2) * 2 + 1 * (y 1).val = (y 1).val; rw [e1]; omega

/-- The network's head on the arrays the region finds. -/
abbrev result (c : Dev nD) : S50000x2.Idx → EReal :=
  head (R := 50000) (V c main_v22) (V c main_v34) (V c main_arg6) (V c main_arg7) (fun q => (V c main_v35 : S1x128.Idx → EReal) (ix2 (0 : Fin 1) q))
    (V c main_arg9) (fun q => (V c main_v36 : S1x2.Idx → EReal) (ix2 (0 : Fin 1) q))

/-- Where the result's block at point t sits in the array: block row p is array row 2000·t + p. -/
theorem emb_out (t : Fin cfg1.N) (p : Fin 2000) (q : Fin 2) :
    ((cfg1.win 7).blk t).view.emb (ix2 p q) = (ix2 (rowAt t.val (lt25 t) p) q : S50000x2.Idx) := by
  obtain ⟨-, -, -, -, -, -, -, -, -, -, -, -, -, -, e0, e1, -⟩ := idx_facts t
  refine funext fun a => Fin.ext ?_
  match a with
  | ⟨0, _⟩ => show win1_7.index t (0 : Fin 2) * 2000 + 1 * p.val = t.val * 2000 + p.val; rw [e0]; omega
  | ⟨1, _⟩ => show win1_7.index t (1 : Fin 2) * 2 + 1 * q.val = q.val; rw [e1]; omega

/-- What point t writes back is block t of the head of the entry arrays. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz,
    View.ld_unit_zero (S := S128x2) hz, View.ld_unit_zero (S := S1x2) hz]
  funext j
  obtain ⟨p, q, rfl⟩ : ∃ (p : Fin 2000) (q : Fin 2), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = result V c (((cfg1.win 7).blk t).view.emb (ix2 p q))
  rw [emb_out t p q]
  refine (Body.pay1_at (iblk1 V c 0 t) (iblk1 V c 1 t) (iblk1 V c 2 t) (iblk1 V c 3 t) (iblk1 V c 4 t) (iblk1 V c 5 t) (iblk1 V c 6 t) p q).trans ?_
  show _ + _ = (∑ k : Fin 128, linAt (R := 50000) (V c main_v22) (V c main_v34) (V c main_arg6) (V c main_arg7) _ (rowAt t.val (lt25 t) p) k
      * (V c main_arg9 : S128x2.Idx → EReal) (ix2 k q)) + (V c main_v36 : S1x2.Idx → EReal) (ix2 (0 : Fin 1) q)
  refine congrArg₂ (· + ·) (Finset.sum_congr rfl fun k _ => congrArg₂ (· * ·) ?_ (congrFun (blk_wf V c t) (ix2 k q))) (congrFun (blk_bf V c t) (ix2 (0 : Fin 1) q))
  refine linAt_congr _ _ _ _ _ _ _ _ _ _ p (rowAt t.val (lt25 t) p) k (blk_h V c t p) (blk_hn V c t p) (blk_ws V c t) (blk_wn V c t) ?_
  show (iblk1 V c 4 t : Vec Ideal S1x128 .f32) (ix2 (0 : Fin 1) k) = _
  rw [blk_b V c t]

/-- An index of the array is in point t's block iff each coordinate is in the block's range on its axis. -/
theorem mem_blk (t : Fin cfg1.N) (i : S50000x2.Idx) :
    i ∈ ((cfg1.win 7).blk t).view.set ↔ ∀ a : Fin 2, win1_7.index t a * S2000x2.size a ≤ (i a).val ∧ (i a).val < win1_7.index t a * S2000x2.size a + S2000x2.size a := by
  show i ∈ ((View.whole main_v37).slice (win1_7.rect t)).set ↔ _
  rw [View.set_slice_whole, Rect.mem_set_unit]
  exact Iff.rfl

/-- Every row of the array is in some point's block: row r is in block r / 2000. -/
theorem cover (i : S50000x2.Idx) : ∃ t : Fin cfg1.N, (cfg1.win 7).flush t = true ∧ i ∈ ((cfg1.win 7).blk t).view.set := by
  have hN : cfg1.N = 25 := N_1
  have hi0 : (i 0).val < 50000 := (i 0).isLt
  have hi1 : (i 1).val < 2 := (i 1).isLt
  let t : Fin cfg1.N := ⟨(i 0).val / 2000, by omega⟩
  obtain ⟨-, -, -, -, -, -, -, -, -, -, -, -, -, -, e0, e1, -⟩ := idx_facts t
  have ht : t.val = (i 0).val / 2000 := rfl
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 2 ≤ (i 1).val ∧ (i 1).val < win1_7.index t (1 : Fin 2) * 2 + 2; rw [e1]; omega

/-- The result array after the region: the head of the arrays the region finds. -/
theorem final (c : Dev nD) : (dat1 V c).arrAt 7 cfg1.N = result V c :=
  (dat1 V c).arrAt_eq_of_cover 7 (result V c) (fun t _ => flushed_eq V c t) cover

end Cert.KernelIdeal.Layer2

end
-- ==== Proof.Fold.lean ====
/-
  The idealized kernel's result array as one term of the launch contents.

  The buffer contents at the four segment boundaries are a fold from the launch memory. Read back:
  * the first host stretch leaves the neighbour means of the node features (edge sums TIMES the reciprocal of the
    clamped in-degree), the first bias as a one-row matrix and the spread reciprocal itself; no argument changes;
  * the first pipeline leaves the first layer of those in its result array;
  * the second stretch leaves the neighbour means of that hidden array, with the same reciprocal, and the two
    remaining bias vectors as one-row matrices;
  * the second pipeline leaves the head of those in the program's result.
-/
import proofs.«155620_j22505628631097_1_alg».proof.Proof.Gen.KernelIdeal.Frame
import proofs.«155620_j22505628631097_1_alg».proof.Proof.Mean
import proofs.«155620_j22505628631097_1_alg».proof.Proof.Layer1
import proofs.«155620_j22505628631097_1_alg».proof.Proof.Layer2
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.Mean Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A 128-vector recast as a one-row matrix, read at (0, q): its entry q. -/
theorem row128 (x : S128.Idx → EReal) (q : Fin 128) :
    shapeCast S1x128 x Facts₀.shapeCasts_S128_S1x128 (ix2 (0 : Fin 1) q) = x (ix1 q) :=
  shapeCast_apply x Facts₀.shapeCasts_S128_S1x128 (ix2 (0 : Fin 1) q) (ix1 q) (by
    rw [Shape.rowMajor_val_one, Shape.rowMajor_val_two]
    show q.val = 0 * 128 + q.val
    omega)

/-- A 2-vector recast as a one-row matrix, read at (0, q): its entry q. -/
theorem row2 (x : S2.Idx → EReal) (q : Fin 2) :
    shapeCast S1x2 x Facts₀.shapeCasts_S2_S1x2 (ix2 (0 : Fin 1) q) = x (ix1 q) :=
  shapeCast_apply x Facts₀.shapeCasts_S2_S1x2 (ix2 (0 : Fin 1) q) (ix1 q) (by
    rw [Shape.rowMajor_val_one, Shape.rowMajor_val_two]
    show q.val = 0 * 2 + q.val
    omega)

/-! ## After the first host stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

/-- The neighbour means of the node features, by the reciprocal. -/
theorem W1_v20 (c : Dev nD) : W1 m ρ c (Proc.devRef .tc main_v20)
    = meanMul (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl

/-- The first bias as a one-row matrix. -/
theorem W1_v21 (c : Dev nD) : W1 m ρ c (Proc.devRef .tc main_v21)
    = fun i => shapeCast S1x128 (m ((c : Thread nD τ).loc main_arg5)) Facts₀.shapeCasts_S128_S1x128 i := by
  show StableHlo.after hostOps0 (W0 m ρ c) (Proc.devRef .tc main_v21) = _
  after_results_simp <;> rfl

/-- The reciprocal of the clamped in-degree, as a column. -/
theorem W1_v8 (c : Dev nD) : W1 m ρ c (Proc.devRef .tc main_v8)
    = broadcastInDim S50000x1 ![0] Facts₀.bcast_S50000_S50000x1_0
        (Host.divf (broadcastInDim S50000 ![] Facts₀.bcast_S_S50000 (constant (F := Ideal) S_ .f32 0x3F800000#32)) (denom (F := Ideal) (m ((c : Thread nD τ).loc main_arg2)))) := by
  show StableHlo.after hostOps0 (W0 m ρ c) (Proc.devRef .tc main_v8) = _
  after_results_simp <;> rfl

/-! ## After the first pipeline -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_v8 (c : Dev nD) : W2 m ρ c (Proc.devRef .tc main_v8)
    = broadcastInDim S50000x1 ![0] Facts₀.bcast_S50000_S50000x1_0
        (Host.divf (broadcastInDim S50000 ![] Facts₀.bcast_S_S50000 (constant (F := Ideal) S_ .f32 0x3F800000#32)) (denom (F := Ideal) (m ((c : Thread nD τ).loc main_arg2)))) :=
  (W2_of_ne m ρ c main_v8 (by decide)).trans (W1_v8 m ρ c)

/-- The hidden features: the first layer of the node features and their neighbour means. -/
abbrev hidden (c : Dev nD) : S50000x128.Idx → EReal :=
  layer1 (R := 50000) (m ((c : Thread nD τ).loc main_arg0))
    (meanMul (F := Ideal) (m ((c : Thread nD τ).loc main_arg0)) (m ((c : Thread nD τ).loc main_arg1)) (m ((c : Thread nD τ).loc main_arg2)))
    (m ((c : Thread nD τ).loc main_arg3)) (m ((c : Thread nD τ).loc main_arg4)) (fun q => (m ((c : Thread nD τ).loc main_arg5) : S128.Idx → EReal) (ix1 q))

theorem W2_v22 (c : Dev nD) : W2 m ρ c (Proc.devRef .tc main_v22) = hidden m c := by
  refine (W2_arr m ρ c 5).trans ((Layer1.final (V1 m ρ) c).trans ?_)
  show layer1 (R := 50000) (W1 m ρ c (Proc.devRef .tc main_arg0)) (W1 m ρ c (Proc.devRef .tc main_v20)) (W1 m ρ c (Proc.devRef .tc main_arg3))
      (W1 m ρ c (Proc.devRef .tc main_arg4)) (fun q => (W1 m ρ c (Proc.devRef .tc main_v21) : S1x128.Idx → EReal) (ix2 (0 : Fin 1) q)) = _
  rw [W1_arg0 m ρ c, W1_v20 m ρ c, W1_arg3 m ρ c, W1_arg4 m ρ c, W1_v21 m ρ c]
  exact congrArg (layer1 (R := 50000) _ _ _ _) (funext fun q => row128 _ q)

/-! ## After the second host stretch -/

theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_v22 (c : Dev nD) : W3 m ρ c (Proc.devRef .tc main_v22) = hidden m c := by
  show StableHlo.after hostOps1 (W2 m ρ c) (Proc.devRef .tc main_v22) = _
  after_results_simp
  exact W2_v22 m ρ c

/-- The neighbour means of the hidden features, by the same reciprocal. -/
theorem W3_v34 (c : Dev nD) : W3 m ρ c (Proc.devRef .tc main_v34)
    = meanMul (F := Ideal) (hidden m c) (m ((c : Thread nD τ).loc main_arg1)) (m ((c : Thread nD τ).loc main_arg2)) := by
  show StableHlo.after hostOps1 (W2 m ρ c) (Proc.devRef .tc main_v34) = _
  after_results_simp
  rw [W2_arg1 m ρ c, W2_arg2 m ρ c, W2_v8 m ρ c, W2_v22 m ρ c]
  rfl

theorem W3_v35 (c : Dev nD) : W3 m ρ c (Proc.devRef .tc main_v35)
    = fun i => shapeCast S1x128 (m ((c : Thread nD τ).loc main_arg8)) Facts₀.shapeCasts_S128_S1x128 i := by
  show StableHlo.after hostOps1 (W2 m ρ c) (Proc.devRef .tc main_v35) = _
  after_results_simp
  rw [W2_arg8 m ρ c]
  rfl

theorem W3_v36 (c : Dev nD) : W3 m ρ c (Proc.devRef .tc main_v36)
    = fun i => shapeCast S1x2 (m ((c : Thread nD τ).loc main_arg10)) Facts₀.shapeCasts_S2_S1x2 i := by
  show StableHlo.after hostOps1 (W2 m ρ c) (Proc.devRef .tc main_v36) = _
  after_results_simp
  rw [W2_arg10 m ρ c]
  rfl

/-! ## After the second pipeline: the result -/

/-- The program's result array at the end: the head of the hidden features and their neighbour means. -/
theorem value (c : Dev nD) : W4 m ρ c (Proc.devRef .tc main_v37)
    = head (R := 50000) (hidden m c)
        (meanMul (F := Ideal) (hidden m c) (m ((c : Thread nD τ).loc main_arg1)) (m ((c : Thread nD τ).loc main_arg2)))
        (m ((c : Thread nD τ).loc main_arg6)) (m ((c : Thread nD τ).loc main_arg7)) (fun q => (m ((c : Thread nD τ).loc main_arg8) : S128.Idx → EReal) (ix1 q))
        (m ((c : Thread nD τ).loc main_arg9)) (fun q => (m ((c : Thread nD τ).loc main_arg10) : S2.Idx → EReal) (ix1 q)) := by
  refine (W4_arr m ρ c 7).trans ((Layer2.final (V3 m ρ) c).trans ?_)
  show head (R := 50000) (W3 m ρ c (Proc.devRef .tc main_v22)) (W3 m ρ c (Proc.devRef .tc main_v34)) (W3 m ρ c (Proc.devRef .tc main_arg6))
      (W3 m ρ c (Proc.devRef .tc main_arg7)) (fun q => (W3 m ρ c (Proc.devRef .tc main_v35) : S1x128.Idx → EReal) (ix2 (0 : Fin 1) q))
      (W3 m ρ c (Proc.devRef .tc main_arg9)) (fun q => (W3 m ρ c (Proc.devRef .tc main_v36) : S1x2.Idx → EReal) (ix2 (0 : Fin 1) q)) = _
  rw [W3_v22 m ρ c, W3_v34 m ρ c, W3_arg6 m ρ c, W3_arg7 m ρ c, W3_arg9 m ρ c, W3_v35 m ρ c, W3_v36 m ρ c]
  exact congrArg₂ (fun β γ => head (R := 50000) _ _ _ _ β _ γ) (funext fun q => row128 _ q) (funext fun q => row2 _ q)

end Cert.KernelIdeal.Fold

end
-- ==== Proof.RefValue.lean ====
/-
  The idealized reference, stage by stage, is the network of the specification.

  Its hidden features (after the clamp at zero) are the first layer of the node features and their neighbour means;
  its result is the head applied to the hidden features and THEIR neighbour means. Each neighbour mean is the array of
  edge sums divided by the clamped in-degree. A matrix product on the host read at (r, q) is the sum over the 128
  contracted features; a bias vector broadcast to all rows read at (r, q) is its entry q.
-/
import proofs.«155620_j22505628631097_1_alg».proof.Proof.Gen.ReferenceIdeal.Read
import proofs.«155620_j22505628631097_1_alg».proof.Proof.Spec
import proofs.«155620_j22505628631097_1_alg».proof.Proof.Mean

noncomputable section

namespace Cert.ReferenceIdeal.Net

open Cert.ReferenceIdeal Cert.ReferenceIdeal.Read Cert.Sage
open Idealize.ShloMosaic Idealize.ShloMosaic.ValueIdx

/-- The reference's first neighbour mean is the edge sums divided by the clamped degree. -/
theorem mean1 (x0 : (⟨S50000x128, .f32⟩ : BufTy).Contents (Elt Ideal)) (x1 x2 : (⟨S800000, .i32⟩ : BufTy).Contents (Elt Ideal)) :
    val_main_v18 (F := Ideal) x0 x1 x2 = Cert.KernelIdeal.Mean.meanDiv (F := Ideal) x0 x1 x2 := rfl

/-- Its second neighbour mean is the same function of the hidden features. -/
theorem mean2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v44 (F := Ideal) x0 x1 x2 x3 x4 x5 = Cert.KernelIdeal.Mean.meanDiv (F := Ideal) (val_main_v25 (F := Ideal) x0 x1 x2 x3 x4 x5) x1 x2 := rfl

/-- The hidden features are the first layer of the node features and their neighbour means. -/
theorem hidden (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5
      = layer1 (R := 50000) x0 (val_main_v18 (F := Ideal) x0 x1 x2) x3 x4 (fun q => x5 (ix1 q)) := by
  funext i
  obtain ⟨r, q, rfl⟩ : ∃ (r : Fin 50000) (q : Fin 128), i = ix2 r q := ⟨i 0, i 1, eq_ix2 i⟩
  have e1 : ∀ k : Fin 128, lidx_main_v19 (ix2 r q) k = ix2 r k := fun k => funext fun a => by match a with | ⟨0, _⟩ => rfl | ⟨1, _⟩ => rfl
  have e2 : ∀ k : Fin 128, ridx_main_v19 (ix2 r q) k = ix2 k q := fun k => funext fun a => by match a with | ⟨0, _⟩ => rfl | ⟨1, _⟩ => rfl
  have e3 : ∀ k : Fin 128, lidx_main_v20 (ix2 r q) k = ix2 r k := fun k => funext fun a => by match a with | ⟨0, _⟩ => rfl | ⟨1, _⟩ => rfl
  have e4 : ∀ k : Fin 128, ridx_main_v20 (ix2 r q) k = ix2 k q := fun k => funext fun a => by match a with | ⟨0, _⟩ => rfl | ⟨1, _⟩ => rfl
  have e5 : idx_main_v22 (idx_main_v23 (ix2 r q)) = ix1 q := funext fun a => by match a with | ⟨0, _⟩ => rfl
  rw [val_main_v25_apply, val_main_v24_apply, val_main_v21_apply, val_main_v19_apply, val_main_v20_apply, val_main_v23_apply,
    val_main_v22_apply, val_main_call0_v0_apply, val_main_call0_cst_apply]
  simp only [e1, e2, e3, e4, e5, Ideal.maximumf_def, Ideal.addf_def, Ideal.ofBits_def, Ideal.ofBits_zero_f32]
  rfl

/-- The result is the head of the hidden features and their neighbour means. -/
theorem result (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) :
    val_main_v54 (F := Ideal) x0 x1 x2 x3 x4 x5 x6 x7 x8 x9 x10
      = head (R := 50000) (val_main_v25 (F := Ideal) x0 x1 x2 x3 x4 x5) (val_main_v44 (F := Ideal) x0 x1 x2 x3 x4 x5) x6 x7 (fun q => x8 (ix1 q))
          x9 (fun q => x10 (ix1 q)) := by
  funext i
  obtain ⟨r, q, rfl⟩ : ∃ (r : Fin 50000) (q : Fin 2), i = ix2 r q := ⟨i 0, i 1, eq_ix2 i⟩
  have e1 : ∀ k : Fin 128, lidx_main_v51 (ix2 r q) k = ix2 r k := fun k => funext fun a => by match a with | ⟨0, _⟩ => rfl | ⟨1, _⟩ => rfl
  have e2 : ∀ k : Fin 128, ridx_main_v51 (ix2 r q) k = ix2 k q := fun k => funext fun a => by match a with | ⟨0, _⟩ => rfl | ⟨1, _⟩ => rfl
  have e3 : ∀ k k' : Fin 128, lidx_main_v45 (ix2 r k) k' = ix2 r k' := fun k k' => funext fun a => by match a with | ⟨0, _⟩ => rfl | ⟨1, _⟩ => rfl
  have e4 : ∀ k k' : Fin 128, ridx_main_v45 (ix2 r k) k' = ix2 k' k := fun k k' => funext fun a => by match a with | ⟨0, _⟩ => rfl | ⟨1, _⟩ => rfl
  have e5 : ∀ k k' : Fin 128, lidx_main_v46 (ix2 r k) k' = ix2 r k' := fun k k' => funext fun a => by match a with | ⟨0, _⟩ => rfl | ⟨1, _⟩ => rfl
  have e6 : ∀ k k' : Fin 128, ridx_main_v46 (ix2 r k) k' = ix2 k' k := fun k k' => funext fun a => by match a with | ⟨0, _⟩ => rfl | ⟨1, _⟩ => rfl
  have e7 : ∀ k : Fin 128, idx_main_v48 (idx_main_v49 (ix2 r k)) = ix1 k := fun k => funext fun a => by match a with | ⟨0, _⟩ => rfl
  have e8 : idx_main_v52 (idx_main_v53 (ix2 r q)) = ix1 q := funext fun a => by match a with | ⟨0, _⟩ => rfl
  rw [val_main_v54_apply, val_main_v51_apply, val_main_v53_apply, val_main_v52_apply]
  simp only [e1, e2, e8, val_main_v50_apply, val_main_v47_apply, val_main_v45_apply, val_main_v46_apply, val_main_v49_apply, val_main_v48_apply,
    e3, e4, e5, e6, e7, Ideal.addf_def]
  rfl

end Cert.ReferenceIdeal.Net

end
-- ==== Proof.lean ====
/-
  A two-layer graph convolution with mean aggregation, followed by a 128 → 2 classifier, on 50000 nodes and 800000 edges.

  Both programs compute, with hn(h) the mean of h over each node's in-neighbours (the edge sums over the in-degree
  clamped from below by one),
      hidden = max(x · W1self + hn(x) · W1neigh + b1, 0)
      result = (hidden · W2self + hn(hidden) · W2neigh + b2) · Wf + bf.
  The kernel computes the two linear parts, the clamp and the classifier in two row-blocked pipelines (25 blocks of 2000
  rows each) and everything about the edges on the host; the reference is host operations only. On the extended reals
  the narrowing of a matrix product's operands is the identity and a blocked product is the whole product row by row,
  so the one difference is how the mean is spelt: the kernel multiplies the edge sums by the reciprocal
  1 / max(deg, 1), the reference divides by max(deg, 1). Since x · (1 / y) = x / y for every extended real x whenever
  y ≠ 0, and max(deg, 1) ≥ 1, the two agree for all inputs; the finiteness of the inputs is not used.

  The modules: Spec (the network index by index), LibRecip and Mean (the reciprocal law, on scalars and on the arrays),
  Payload (what each pipeline's body stores at a row and a column), Layer1 and Layer2 (each pipeline's result array as a
  function of the arrays it finds), KernelRun (the kernel's run with every buffer's final contents), Fold (those contents
  read back to the launch memory), RefValue (the reference's stages as the same network).
-/
import proofs.«155620_j22505628631097_1_alg».proof.Defs
import proofs.«155620_j22505628631097_1_alg».proof.Proof.Gen.Kernel
import proofs.«155620_j22505628631097_1_alg».proof.Proof.Gen.Kernel.Skeleton
import proofs.«155620_j22505628631097_1_alg».proof.Proof.Gen.Kernel.Launch
import proofs.«155620_j22505628631097_1_alg».proof.Proof.Gen.Kernel.Points
import proofs.«155620_j22505628631097_1_alg».proof.Proof.Gen.Kernel.Frame
import proofs.«155620_j22505628631097_1_alg».proof.Proof.Gen.KernelIdeal
import proofs.«155620_j22505628631097_1_alg».proof.Proof.Gen.KernelIdeal.Skeleton
import proofs.«155620_j22505628631097_1_alg».proof.Proof.Gen.KernelIdeal.Launch
import proofs.«155620_j22505628631097_1_alg».proof.Proof.Gen.KernelIdeal.Points
import proofs.«155620_j22505628631097_1_alg».proof.Proof.Gen.KernelIdeal.Frame
import proofs.«155620_j22505628631097_1_alg».proof.Proof.Gen.ReferenceIdeal
import proofs.«155620_j22505628631097_1_alg».proof.Proof.Gen.Pre_finite_inputs
import proofs.«155620_j22505628631097_1_alg».proof.Proof.Gen.ReferenceIdeal.Run
import proofs.«155620_j22505628631097_1_alg».proof.Proof.Gen.ReferenceIdeal.Read
import proofs.«155620_j22505628631097_1_alg».proof.Proof.KernelRun
import proofs.«155620_j22505628631097_1_alg».proof.Proof.Fold
import proofs.«155620_j22505628631097_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The idealized reference is a line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The kernel's result array at the end is the reference's result stage of the same eleven argument arrays: both are
    the head of the hidden features and their neighbour means, the kernel's means by the reciprocal and the reference's
    by the quotient, which agree. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v37)
      = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Fold.value, Cert.ReferenceIdeal.Net.result, Cert.ReferenceIdeal.Net.mean2, Cert.ReferenceIdeal.Net.hidden,
    Cert.ReferenceIdeal.Net.mean1, ← Cert.KernelIdeal.Mean.meanMul_eq_meanDiv, ← Cert.KernelIdeal.Mean.meanMul_eq_meanDiv]

/-- From memories agreeing on the arguments, the idealized kernel and the idealized reference both run and end with
    equal results: the reference's result stage of the kernel's arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (kernel_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v54_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
